-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S32x64 .f32) (main_arg4 : FVec F S64 .f32) (main_arg5 : FVec F S64x32 .f32) (main_arg6 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S5000x32 : Shape := ⟨2, ![5000, 32]⟩
abbrev S5000x1 : Shape := ⟨2, ![5000, 1]⟩
abbrev S5000x64 : Shape := ⟨2, ![5000, 64]⟩
abbrev S1x32 : Shape := ⟨2, ![1, 32]⟩

abbrev nBuf : Space → Nat
  | .hbm => 61
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x32, .f32⟩
  | .hbm, ⟨27, _⟩ => ⟨S100000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S100000x1, .f32⟩
  | .hbm, ⟨42, _⟩ => ⟨S100000x1, .f32⟩
  | .hbm, ⟨43, _⟩ => ⟨S1x64, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S100000x1, .f32⟩
  | .hbm, ⟨59, _⟩ => ⟨S1x32, .f32⟩
  | .hbm, ⟨60, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S32x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x1, .f32⟩
  | .local _ .vmem, ⟨14, _⟩ => ⟨S5000x1, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S100000_S100000x1 : S100000.ShapeCasts S100000x1
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v25) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x32, .f32⟩
  | .hbm, ⟨27, _⟩ => ⟨S100000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S100000x1, .f32⟩
  | .hbm, ⟨42, _⟩ => ⟨S100000x32, .f32⟩
  | .hbm, ⟨43, _⟩ => ⟨S100000x32, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's program, run: every weakly fair execution from any launch memory terminates without a
  fault, the seven argument arrays end as launched, and the result array ends at the contents the fold through the
  program's four segments assigns to it (the host operations before the first kernel, the first kernel's write-backs,
  the host operations between the kernels, the second kernel's write-backs).  The argument is the one that gives the
  frame of the same program: the segments' run, the last thread state read against the final state; here the result
  buffer, which is unscoped like the arguments, is read off that last state too.
-/
import proofs.«136132_j52793738002763_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payload.lean ====
/-
  The two kernel bodies' stored values read at one entry, on the extended reals.

  FIRST KERNEL. From a block of aggregated features a (5000 rows by 32), the two degree factors of its rows as columns
  d and s, the first layer's weights w1 (32 by 64) and bias row b1, and the second layer's weights w2 (64 by 32), the
  body stores, at row p and column q,
      sum over k of ((sum over i of (a(p,i) * d(p)) * w1(i,k)) + b1(k)) * s(p) * w2(k,q):
  the first layer's output of row p, scaled by s(p), carried through the second layer's weights.  The two roundings to
  the short float format before each product are the identity on the extended reals, and each product into the zero
  accumulator is the plain sum over the contracted coordinate.

  SECOND KERNEL. From a block a (5000 by 32), the column d and the bias row b it stores a(p,q) * d(p) + b(q).
-/
import proofs.«136132_j52793738002763_2_alg».proof.Proof.Gen.KernelIdeal.Skeleton
import proofs.«136132_j52793738002763_2_alg».proof.Proof.LibMatmulAt
import proofs.«136132_j52793738002763_2_alg».proof.Proof.LibColBroadcast
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-! ## Where the two products' operand indices sit -/

theorem d1_l0 (i : S5000x64.Idx) (q : dot_S5000x32_S32x64_S5000x64_1_0_0_1_n_n.contr.Idx) : (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem d1_l1 (i : S5000x64.Idx) (q : dot_S5000x32_S32x64_S5000x64_1_0_0_1_n_n.contr.Idx) : (dot_S5000x32_S32x64_S5000x64_1_0_0_1_n_n.lhsIdx i q 1).val = (q ⟨0, by decide⟩).val :=
  dot_S5000x32_S32x64_S5000x64_1_0_0_1_n_n.lhsIdx_val_of_single rfl i q
theorem d1_r0 (i : S5000x64.Idx) (q : dot_S5000x32_S32x64_S5000x64_1_0_0_1_n_n.contr.Idx) : (dot_S5000x32_S32x64_S5000x64_1_0_0_1_n_n.rhsIdx i q 0).val = (q ⟨0, by decide⟩).val :=
  dot_S5000x32_S32x64_S5000x64_1_0_0_1_n_n.rhsIdx_val_of_single rfl i q
theorem d1_r1 (i : S5000x64.Idx) (q : dot_S5000x32_S32x64_S5000x64_1_0_0_1_n_n.contr.Idx) : (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

theorem d2_l0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem d2_l1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem d2_r0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem d2_r1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-! ## The stored values -/

/-- The first kernel's stored value at row p and column q. -/
theorem pay0_at (x0 : Vec Ideal S5000x32 .f32) (x1 x2 : Vec Ideal S5000x1 .f32) (x3 : Vec Ideal S32x64 .f32)
    (x4 : Vec Ideal S1x64 .f32) (x5 : Vec Ideal S64x32 .f32) (p : Fin 5000) (q : Fin 32) :
    k0_pay1 (F := Ideal) x0 x1 x3 x4 x2 x5 (ix2 p q)
      = ∑ k : Fin 64, (((∑ i : Fin 32, (x0 (ix2 p i) * x1 (ix2 p 0)) * x3 (ix2 i k)) + x4 (ix2 0 k)) * x2 (ix2 p 0)) * x5 (ix2 k q) := by
  unfold k0_pay1
  simp only [shapeCast_self]
  refine (MatmulAt.matmul_zero_ix2 dot_S5000x64_S64x32_S5000x32_1_0_0_1_n_n rfl rfl d2_l0 d2_l1 d2_r0 d2_r1 none _ _ p q).trans ?_
  refine Finset.sum_congr rfl fun k _ => ?_
  rw [truncf_apply, truncf_apply, mulf_apply, addf_apply,
    Cert.LibColBroadcast.broadcastTo_a1_ab_apply, broadcastTo_1b_ab_apply,
    MatmulAt.matmul_zero_ix2 dot_S5000x32_S32x64_S5000x64_1_0_0_1_n_n rfl rfl d1_l0 d1_l1 d1_r0 d1_r1 none _ _ p k]
  congr 3
  refine Finset.sum_congr rfl fun i _ => ?_
  rw [truncf_apply, truncf_apply, mulf_apply, Cert.LibColBroadcast.broadcastTo_a1_ab_apply]

/-- The second kernel's stored value at row p and column q. -/
theorem pay1_at (x0 : Vec Ideal S5000x32 .f32) (x1 : Vec Ideal S5000x1 .f32) (x2 : Vec Ideal S1x32 .f32) (p : Fin 5000) (q : Fin 32) :
    k1_pay1 (F := Ideal) x0 x1 x2 (ix2 p q) = x0 (ix2 p q) * x1 (ix2 p 0) + x2 (ix2 0 q) := by
  unfold k1_pay1
  simp only [shapeCast_self]
  rw [addf_apply, mulf_apply, Cert.LibColBroadcast.broadcastTo_a1_ab_apply, broadcastTo_1b_ab_apply]

end Cert.KernelIdeal.Hand
end
-- ==== Proof.Dense.lean ====
/-
  The first kernel's output array as one function of the arrays it reads.

  The kernel walks the 100000 nodes in 20 blocks of 5000 rows.  At block t it reads rows 5000 t … 5000 t + 4999 of the
  aggregated features and of the two degree-factor columns, and the whole of the two weight matrices and of the bias
  row; it writes rows 5000 t … 5000 t + 4999 of the output.  Row n of the output is therefore the body's value at row
  n − 5000 t of block t = n / 5000, which depends on row n of the inputs only: the output array is `denseArr` of the
  whole input arrays, every row being covered by exactly the block that holds it.
-/
import proofs.«136132_j52793738002763_2_alg».proof.Proof.Gen.KernelIdeal.Frame
import proofs.«136132_j52793738002763_2_alg».proof.Proof.Payload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Entry (n, j) of the first kernel's output from whole arrays: the first layer at node n, scaled, through the second
    layer's weights. -/
def dense (a : S100000x32.Idx → EReal) (dc sc : S100000x1.Idx → EReal) (w1 : S32x64.Idx → EReal) (b1 : S1x64.Idx → EReal)
    (w2 : S64x32.Idx → EReal) (n : Fin 100000) (j : Fin 32) : EReal :=
  ∑ k : Fin 64, (((∑ i : Fin 32, (a (ix2 n i) * dc (ix2 n 0)) * w1 (ix2 i k)) + b1 (ix2 0 k)) * sc (ix2 n 0)) * w2 (ix2 k j)

/-- The same as an array. -/
def denseArr (a : S100000x32.Idx → EReal) (dc sc : S100000x1.Idx → EReal) (w1 : S32x64.Idx → EReal) (b1 : S1x64.Idx → EReal)
    (w2 : S64x32.Idx → EReal) : S100000x32.Idx → EReal := fun i => dense a dc sc w1 b1 w2 (i 0) (i 1)

/-- Where each window's block sits at point t: the row-blocked windows at block row t, the whole ones at the origin. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Node 5000 t + p. -/
def node0 (t : Fin cfg0.N) (p : Fin 5000) : Fin 100000 :=
  ⟨5000 * t.val + p.val, by have h : t.val < 20 := lt_of_lt_of_eq t.isLt N_0; have := p.isLt; omega⟩

theorem blk0_0 (c : Dev nD) (t : Fin cfg0.N) (p : Fin 5000) (i : Fin 32) :
    iblk0 V c 0 t (ix2 p i) = V c main_v25 (ix2 (node0 t p) i) := by
  obtain ⟨e0, e1, -⟩ := idx0 t
  unfold iblk0
  rw [View.read_apply]
  show V c main_v25 _ = V c main_v25 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 32 + 1 * i.val = i.val; rw [e1]; omega

theorem blk0_1 (c : Dev nD) (t : Fin cfg0.N) (p : Fin 5000) :
    iblk0 V c 1 t (ix2 p 0) = V c main_v26 (ix2 (node0 t p) 0) := by
  obtain ⟨-, -, e0, e1, -⟩ := idx0 t
  unfold iblk0
  rw [View.read_apply]
  show V c main_v26 _ = V c main_v26 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

theorem blk0_2 (c : Dev nD) (t : Fin cfg0.N) (p : Fin 5000) :
    iblk0 V c 2 t (ix2 p 0) = V c main_v27 (ix2 (node0 t p) 0) := by
  obtain ⟨-, -, -, -, e0, e1, -⟩ := idx0 t
  unfold iblk0
  rw [View.read_apply]
  show V c main_v27 _ = V c main_v27 _
  congr 1
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * 0 = 0; rw [e1]

theorem blk0_3 (c : Dev nD) (t : Fin cfg0.N) (y : S32x64.Idx) : iblk0 V c 3 t y = V c main_arg3 y := by
  obtain ⟨-, -, -, -, -, -, e0, e1, -⟩ := idx0 t
  unfold iblk0
  rw [View.read_apply]
  show V c main_arg3 _ = V c main_arg3 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 64 + 1 * (y 1).val = (y 1).val; rw [e1]; omega

theorem blk0_4 (c : Dev nD) (t : Fin cfg0.N) (y : S1x64.Idx) : iblk0 V c 4 t y = V c main_v28 y := by
  obtain ⟨-, -, -, -, -, -, -, -, e0, e1, -⟩ := idx0 t
  unfold iblk0
  rw [View.read_apply]
  show V c main_v28 _ = V c main_v28 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem blk0_5 (c : Dev nD) (t : Fin cfg0.N) (y : S64x32.Idx) : iblk0 V c 5 t y = V c main_arg5 y := by
  obtain ⟨-, -, -, -, -, -, -, -, -, -, e0, e1, -⟩ := idx0 t
  unfold iblk0
  rw [View.read_apply]
  show V c main_arg5 _ = V c main_arg5 _
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 32 + 1 * (y 1).val = (y 1).val; rw [e1]; omega

/-- Entry (p, q) of the output's block t is entry (5000 t + p, q) of the array. -/
theorem emb0_6 (t : Fin cfg0.N) (p : Fin 5000) (q : Fin 32) :
    ((cfg0.win 6).blk t).view.emb (ix2 p q) = ix2 (node0 t p) q := by
  obtain ⟨-, -, -, -, -, -, -, -, -, -, -, -, e0, e1⟩ := idx0 t
  funext a
  apply Fin.ext
  match a with
  | ⟨0, _⟩ => show win0_6.index t (0 : Fin 2) * 5000 + 1 * p.val = 5000 * t.val + p.val; rw [e0]; omega
  | ⟨1, _⟩ => show win0_6.index t (1 : Fin 2) * 32 + 1 * q.val = q.val; rw [e1]; omega

/-- What point t writes back is block t of `denseArr` of the arrays as the kernel finds them. -/
theorem flushed0 (c : Dev nD) (t : Fin cfg0.N) :
    (dat0 V c).flushed 6 t = ((cfg0.win 6).blk t).view.read (Elt Ideal)
      (denseArr (V c main_v25) (V c main_v26) (V c main_v27) (V c main_arg3) (V c main_v28) (V c main_arg5)) := by
  show (cfg0.win 6).cut (grid0.coords t) ((dat0 V c).after 6 t) = _
  rw [after0_6]
  unfold out0_6
  rw [View.canon_unit_zero hz]
  simp only [View.ld_unit_zero (S := S5000x32) hz, View.ld_unit_zero (S := S5000x1) hz, View.ld_unit_zero (S := S32x64) hz,
    View.ld_unit_zero (S := S1x64) hz, View.ld_unit_zero (S := S64x32) hz]
  funext y
  obtain ⟨p, q, rfl⟩ : ∃ (p : Fin 5000) (q : Fin 32), y = ix2 p q := ⟨y 0, y 1, eq_ix2 y⟩
  refine (pay0_at _ _ _ _ _ _ p q).trans ?_
  rw [View.read_apply, emb0_6]
  show _ = dense _ _ _ _ _ _ (node0 t p) q
  unfold dense
  simp only [blk0_0, blk0_1, blk0_2, blk0_3, blk0_4, blk0_5]

/-- An index of the output array is in point t's block iff its coordinates are in the block's ranges. -/
theorem mem_blk0 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v29).slice (win0_6.rect t)).set ↔ _
  rw [View.set_slice_whole, Rect.mem_set_unit]
  exact Iff.rfl

/-- Every row is in the block that holds it. -/
theorem cover0 (i : S100000x32.Idx) : ∃ t : Fin cfg0.N, (cfg0.win 6).flush t = true ∧ i ∈ ((cfg0.win 6).blk t).view.set := by
  have h0 : (i 0).val < 100000 := (i 0).isLt
  have h1 : (i 1).val < 32 := (i 1).isLt
  have hN : cfg0.N = 20 := N_0
  let t : Fin cfg0.N := ⟨(i 0).val / 5000, by rw [hN]; omega⟩
  obtain ⟨-, -, -, -, -, -, -, -, -, -, -, -, e0, e1⟩ := idx0 t
  have e0' : win0_6.index t (0 : Fin 2) = (i 0).val / 5000 := e0
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0']; omega
  | ⟨1, _⟩ => show win0_6.index t (1 : Fin 2) * 32 ≤ (i 1).val ∧ (i 1).val < win0_6.index t (1 : Fin 2) * 32 + 32; rw [e1]; omega

/-- The output array after the kernel. -/
theorem final0 (c : Dev nD) : (dat0 V c).arrAt 6 cfg0.N
    = denseArr (V c main_v25) (V c main_v26) (V c main_v27) (V c main_arg3) (V c main_v28) (V c main_arg5) :=
  (dat0 V c).arrAt_eq_of_cover 6 _ (fun t _ => flushed0 V c t) cover0

end Cert.KernelIdeal.Hand

end
-- ==== Proof.ScaleBias.lean ====
/-
  The second kernel's output array as one function of the arrays it reads.

  The same 20 blocks of 5000 rows: at block t the kernel reads rows 5000 t … 5000 t + 4999 of the aggregated array and of
  the in-degree factor's column, and the whole bias row, and writes the same rows of the output, entry (n, j) being
  a(n,j) * d(n) + b(j).
-/
import proofs.«136132_j52793738002763_2_alg».proof.Proof.Gen.KernelIdeal.Frame
import proofs.«136132_j52793738002763_2_alg».proof.Proof.Payload
import proofs.«136132_j52793738002763_2_alg».proof.Proof.Dense

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- Entry (n, j) of the second kernel's output from whole arrays. -/
def scaleBias (a : S100000x32.Idx → EReal) (dc : S100000x1.Idx → EReal) (b : S1x32.Idx → EReal) (n : Fin 100000) (j : Fin 32) : EReal :=
  a (ix2 n j) * dc (ix2 n 0) + b (ix2 0 j)

/-- The same as an array. -/
def scaleBiasArr (a : S100000x32.Idx → EReal) (dc : S100000x1.Idx → EReal) (b : S1x32.Idx → EReal) : S100000x32.Idx → EReal :=
  fun i => scaleBias a dc b (i 0) (i 1)

/-- Where each window's block sits at point t. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Node 5000 t + p. -/
def node1 (t : Fin cfg1.N) (p : Fin 5000) : Fin 100000 :=
  ⟨5000 * t.val + p.val, by have h : t.val < 20 := lt_of_lt_of_eq t.isLt N_1; have := p.isLt; omega⟩

theorem blk1_0 (c : Dev nD) (t : Fin cfg1.N) (p : Fin 5000) (i : Fin 32) :
    iblk1 V c 0 t (ix2 p i) = V c main_v39 (ix2 (node1 t p) i) := by
  obtain ⟨e0, e1, -⟩ := idx1 t
  unfold iblk1
  rw [View.read_apply]
  show V c main_v39 _ = V c main_v39 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 32 + 1 * i.val = i.val; rw [e1]; omega

theorem blk1_1 (c : Dev nD) (t : Fin cfg1.N) (p : Fin 5000) :
    iblk1 V c 1 t (ix2 p 0) = V c main_v40 (ix2 (node1 t p) 0) := by
  obtain ⟨-, -, e0, e1, -⟩ := idx1 t
  unfold iblk1
  rw [View.read_apply]
  show V c main_v40 _ = V c main_v40 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

theorem blk1_2 (c : Dev nD) (t : Fin cfg1.N) (y : S1x32.Idx) : iblk1 V c 2 t y = V c main_v41 y := by
  obtain ⟨-, -, -, -, e0, e1, -⟩ := idx1 t
  unfold iblk1
  rw [View.read_apply]
  show V c main_v41 _ = V c main_v41 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 32 + 1 * (y 1).val = (y 1).val; rw [e1]; omega

/-- Entry (p, q) of the output's block t is entry (5000 t + p, q) of the array. -/
theorem emb1_3 (t : Fin cfg1.N) (p : Fin 5000) (q : Fin 32) :
    ((cfg1.win 3).blk t).view.emb (ix2 p q) = ix2 (node1 t p) q := by
  obtain ⟨-, -, -, -, -, -, e0, e1⟩ := idx1 t
  funext a
  apply Fin.ext
  match a with
  | ⟨0, _⟩ => show win1_3.index t (0 : Fin 2) * 5000 + 1 * p.val = 5000 * t.val + p.val; rw [e0]; omega
  | ⟨1, _⟩ => show win1_3.index t (1 : Fin 2) * 32 + 1 * q.val = q.val; rw [e1]; omega

/-- What point t writes back is block t of `scaleBiasArr` of the arrays as the kernel finds them. -/
theorem flushed1 (c : Dev nD) (t : Fin cfg1.N) :
    (dat1 V c).flushed 3 t = ((cfg1.win 3).blk t).view.read (Elt Ideal)
      (scaleBiasArr (V c main_v39) (V c main_v40) (V c main_v41)) := by
  show (cfg1.win 3).cut (grid1.coords t) ((dat1 V c).after 3 t) = _
  rw [after1_3]
  unfold out1_3
  rw [View.canon_unit_zero hz]
  simp only [View.ld_unit_zero (S := S5000x32) hz, View.ld_unit_zero (S := S5000x1) hz, View.ld_unit_zero (S := S1x32) hz]
  funext y
  obtain ⟨p, q, rfl⟩ : ∃ (p : Fin 5000) (q : Fin 32), y = ix2 p q := ⟨y 0, y 1, eq_ix2 y⟩
  refine (pay1_at _ _ _ p q).trans ?_
  rw [View.read_apply, emb1_3]
  show _ = scaleBias _ _ _ (node1 t p) q
  unfold scaleBias
  simp only [blk1_0, blk1_1, blk1_2]

/-- An index of the output array is in point t's block iff its coordinates are in the block's ranges. -/
theorem mem_blk1 (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v42).slice (win1_3.rect t)).set ↔ _
  rw [View.set_slice_whole, Rect.mem_set_unit]
  exact Iff.rfl

/-- Every row is in the block that holds it. -/
theorem cover1 (i : S100000x32.Idx) : ∃ t : Fin cfg1.N, (cfg1.win 3).flush t = true ∧ i ∈ ((cfg1.win 3).blk t).view.set := by
  have h0 : (i 0).val < 100000 := (i 0).isLt
  have h1 : (i 1).val < 32 := (i 1).isLt
  have hN : cfg1.N = 20 := N_1
  let t : Fin cfg1.N := ⟨(i 0).val / 5000, by rw [hN]; omega⟩
  obtain ⟨-, -, -, -, -, -, e0, e1⟩ := idx1 t
  have e0' : win1_3.index t (0 : Fin 2) = (i 0).val / 5000 := e0
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e0']; omega
  | ⟨1, _⟩ => show win1_3.index t (1 : Fin 2) * 32 ≤ (i 1).val ∧ (i 1).val < win1_3.index t (1 : Fin 2) * 32 + 32; rw [e1]; omega

/-- The output array after the kernel. -/
theorem final1 (c : Dev nD) : (dat1 V c).arrAt 3 cfg1.N = scaleBiasArr (V c main_v39) (V c main_v40) (V c main_v41) :=
  (dat1 V c).arrAt_eq_of_cover 3 _ (fun t _ => flushed1 V c t) cover1

end Cert.KernelIdeal.Hand

end
-- ==== Proof.KernelValue.lean ====
/-
  The idealized kernel's result array as one term of the seven argument arrays.

  The program is four stretches.  Host operations compute the two degree factors (the reciprocal square root of each
  node's clamped out- and in-degree) and the first aggregation: the features scaled by the out-degree factor, gathered
  along the edges' sources and summed into the edges' targets.  The first kernel turns the aggregated features into the
  second layer's per-node products.  Host operations gather those along the edges' sources and sum them into the targets.
  The second kernel scales by the in-degree factor and adds the bias.  Each stretch's contents are read off the fold of
  the program's segments; the host stretches are spelt with the same operations, in the same order, as the first lines of
  the reference program, so their values are written with the reference's own stage functions.
-/
import proofs.«136132_j52793738002763_2_alg».proof.Proof.KernelRun
import proofs.«136132_j52793738002763_2_alg».proof.Proof.Dense
import proofs.«136132_j52793738002763_2_alg».proof.Proof.ScaleBias
import proofs.«136132_j52793738002763_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo
open Idealize.ShloMosaic.Pipeline (Dat Cfg Window)
open scoped BigOperators

variable (m : (ℓ : Loc nD τ sig) → Buf (Elt Ideal) ℓ) (ρ : Dev nD → PrngReg)

/-- The in-degree factor stood up as a column. -/
def dCol (x2 : IVec S1600000 32) : S100000x1.Idx → EReal :=
  shapeCast S100000x1 (Cert.ReferenceIdeal.Read.val_main_v12 (F := Ideal) x2) shapeCasts_S100000_S100000x1
/-- The out-degree factor stood up as a column. -/
def sCol (x1 : IVec S1600000 32) : S100000x1.Idx → EReal :=
  shapeCast S100000x1 (Cert.ReferenceIdeal.Read.val_main_v9 (F := Ideal) x1) shapeCasts_S100000_S100000x1

/-- The second layer's per-node products: the first kernel's output. -/
def nodeProducts (x0 : FVec Ideal S100000x32 .f32) (x1 x2 : IVec S1600000 32) (x3 : FVec Ideal S32x64 .f32) (x4 : FVec Ideal S64 .f32)
    (x5 : FVec Ideal S64x32 .f32) : FVec Ideal S100000x32 .f32 :=
  denseArr (Cert.ReferenceIdeal.Read.val_main_v25 (F := Ideal) x0 x1 x2) (dCol x2) (sCol x1) x3 (shapeCast S1x64 x4 shapeCasts_S64_S1x64) x5

/-- The per-node products gathered along the edges' sources and summed into the edges' targets. -/
def aggregated (x0 : FVec Ideal S100000x32 .f32) (x1 x2 : IVec S1600000 32) (x3 : FVec Ideal S32x64 .f32) (x4 : FVec Ideal S64 .f32)
    (x5 : FVec Ideal S64x32 .f32) : FVec Ideal S100000x32 .f32 :=
  Host.scatterAdd (F := Ideal) Cert.ReferenceIdeal.scatter_S100000x32_S1600000x1_S1600000x32_1_0_0_1 (Cert.ReferenceIdeal.Read.val_main_v23 (F := Ideal)) (Cert.ReferenceIdeal.Read.val_main_v24 (F := Ideal) x2)
    (Host.gather Cert.ReferenceIdeal.gather_S100000x32_S1600000x1_S1600000x32_1_0_n_n_0_1_132 (nodeProducts x0 x1 x2 x3 x4 x5) (Cert.ReferenceIdeal.Read.val_main_v21 (F := Ideal) x1))

/-- The kernel's result. -/
def result (x0 : FVec Ideal S100000x32 .f32) (x1 x2 : IVec S1600000 32) (x3 : FVec Ideal S32x64 .f32) (x4 : FVec Ideal S64 .f32)
    (x5 : FVec Ideal S64x32 .f32) (x6 : FVec Ideal S32 .f32) : S100000x32.Idx → EReal :=
  scaleBiasArr (aggregated x0 x1 x2 x3 x4 x5) (dCol x2) (shapeCast S1x32 x6 shapeCasts_S32_S1x32)

/-! ## Before the first kernel -/

theorem w1_v25 (c : Dev nD) : W1 m ρ c (Proc.devRef .tc main_v25)
    = Cert.ReferenceIdeal.Read.val_main_v25 (F := Ideal) (m ((c : Thread nD τ).loc main_arg0)) (m ((c : Thread nD τ).loc main_arg1)) (m ((c : Thread nD τ).loc main_arg2)) := by
  dsimp only [W1, W0]
  after_results_simp
  rfl

theorem w1_v26 (c : Dev nD) : W1 m ρ c (Proc.devRef .tc main_v26) = dCol (m ((c : Thread nD τ).loc main_arg2)) := by
  dsimp only [W1, W0]
  after_results_simp
  rfl

theorem w1_v27 (c : Dev nD) : W1 m ρ c (Proc.devRef .tc main_v27) = sCol (m ((c : Thread nD τ).loc main_arg1)) := by
  dsimp only [W1, W0]
  after_results_simp
  rfl

theorem w1_v28 (c : Dev nD) : W1 m ρ c (Proc.devRef .tc main_v28)
    = shapeCast S1x64 (m ((c : Thread nD τ).loc main_arg4)) shapeCasts_S64_S1x64 := by
  dsimp only [W1, W0]
  after_results_simp
  rfl

theorem w1_v12 (c : Dev nD) : W1 m ρ c (Proc.devRef .tc main_v12) = Cert.ReferenceIdeal.Read.val_main_v12 (F := Ideal) (m ((c : Thread nD τ).loc main_arg2)) := by
  dsimp only [W1, W0]
  after_results_simp
  rfl

theorem w1_arg1 (c : Dev nD) : W1 m ρ c (Proc.devRef .tc main_arg1) = m ((c : Thread nD τ).loc main_arg1) := by
  dsimp only [W1, W0]
  after_results_simp
theorem w1_arg2 (c : Dev nD) : W1 m ρ c (Proc.devRef .tc main_arg2) = m ((c : Thread nD τ).loc main_arg2) := by
  dsimp only [W1, W0]
  after_results_simp
theorem w1_arg3 (c : Dev nD) : W1 m ρ c (Proc.devRef .tc main_arg3) = m ((c : Thread nD τ).loc main_arg3) := by
  dsimp only [W1, W0]
  after_results_simp
theorem w1_arg5 (c : Dev nD) : W1 m ρ c (Proc.devRef .tc main_arg5) = m ((c : Thread nD τ).loc main_arg5) := by
  dsimp only [W1, W0]
  after_results_simp
theorem w1_arg6 (c : Dev nD) : W1 m ρ c (Proc.devRef .tc main_arg6) = m ((c : Thread nD τ).loc main_arg6) := by
  dsimp only [W1, W0]
  after_results_simp

/-! ## The first kernel, and the buffers it leaves alone -/

theorem w2_v29 (c : Dev nD) : W2 m ρ c (Proc.devRef .tc main_v29)
    = nodeProducts (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 6).trans ?_
  rw [final0 (V1 m ρ) c]
  show denseArr (W1 m ρ c (Proc.devRef .tc main_v25)) (W1 m ρ c (Proc.devRef .tc main_v26)) (W1 m ρ c (Proc.devRef .tc main_v27))
    (W1 m ρ c (Proc.devRef .tc main_arg3)) (W1 m ρ c (Proc.devRef .tc main_v28)) (W1 m ρ c (Proc.devRef .tc main_arg5)) = _
  rw [w1_v25, w1_v26, w1_v27, w1_v28, w1_arg3, w1_arg5]
  rfl

theorem w2_v12 (c : Dev nD) : W2 m ρ c (Proc.devRef .tc main_v12) = Cert.ReferenceIdeal.Read.val_main_v12 (F := Ideal) (m ((c : Thread nD τ).loc main_arg2)) :=
  (W2_of_ne m ρ c main_v12 (by decide)).trans (w1_v12 m ρ c)
theorem w2_arg1 (c : Dev nD) : W2 m ρ c (Proc.devRef .tc main_arg1) = m ((c : Thread nD τ).loc main_arg1) :=
  (W2_of_ne m ρ c main_arg1 (by decide)).trans (w1_arg1 m ρ c)
theorem w2_arg2 (c : Dev nD) : W2 m ρ c (Proc.devRef .tc main_arg2) = m ((c : Thread nD τ).loc main_arg2) :=
  (W2_of_ne m ρ c main_arg2 (by decide)).trans (w1_arg2 m ρ c)
theorem w2_arg6 (c : Dev nD) : W2 m ρ c (Proc.devRef .tc main_arg6) = m ((c : Thread nD τ).loc main_arg6) :=
  (W2_of_ne m ρ c main_arg6 (by decide)).trans (w1_arg6 m ρ c)

/-! ## Between the kernels -/

theorem w3_v39 (c : Dev nD) : W3 m ρ c (Proc.devRef .tc main_v39)
    = aggregated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  dsimp only [W3]
  after_results_simp
  rw [w2_v29, w2_arg1, w2_arg2]
  rfl

theorem w3_v40 (c : Dev nD) : W3 m ρ c (Proc.devRef .tc main_v40) = dCol (m ((c : Thread nD τ).loc main_arg2)) := by
  dsimp only [W3]
  after_results_simp
  rw [w2_v12]
  rfl

theorem w3_v41 (c : Dev nD) : W3 m ρ c (Proc.devRef .tc main_v41)
    = shapeCast S1x32 (m ((c : Thread nD τ).loc main_arg6)) shapeCasts_S32_S1x32 := by
  dsimp only [W3]
  after_results_simp
  rw [w2_arg6]
  rfl

/-! ## The second kernel: the result -/

theorem value (c : Dev nD) : W4 m ρ c (Proc.devRef .tc main_v42)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W4_arr m ρ c 3).trans ?_
  rw [final1 (V3 m ρ) c]
  show scaleBiasArr (W3 m ρ c (Proc.devRef .tc main_v39)) (W3 m ρ c (Proc.devRef .tc main_v40)) (W3 m ρ c (Proc.devRef .tc main_v41)) = _
  rw [w3_v39, w3_v40, w3_v41]
  rfl

/-- The idealized kernel's run: the result array ends at `result` of the arguments, the arguments as launched. -/
theorem run : θ_run defs (onTc (τ := τ) (main (F := Ideal))) ⟨m, fun _ => 0, ρ⟩ (fun r => ∀ c : Dev nD,
      r.2.mem ((c.tc : Thread nD τ).loc main_v42)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value m ρ c), (h c).2⟩) (run_named m ρ)

end Cert.KernelIdeal.Hand

end
-- ==== Proof.LibRealClosed.lean ====
/-
  Closure of the real numbers inside the extended reals.

  An extended real is called real here when it is the image of some real number. Zero and every coerced real are real, and
  the reals are closed under the sum, the difference and the product of the extended reals (whose values at the infinities
  are conventions that never come into play), hence under every finite sum.
-/
import Mathlib

open scoped BigOperators

namespace Cert.Lib.RealClosed

/-- An extended real that is the image of a real number. -/
def IsReal (e : EReal) : Prop := ∃ r : ℝ, e = (r : EReal)

theorem isReal_coe (r : ℝ) : IsReal (r : EReal) := ⟨r, rfl⟩

theorem isReal_zero : IsReal (0 : EReal) := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is a real. -/
theorem isReal_sum {ι : Type*} (s : Finset ι) (f : ι → EReal) (hf : ∀ k ∈ s, IsReal (f k)) :
    IsReal (∑ k ∈ s, f k) := by
  classical
  induction s using Finset.induction_on with
  | empty => simpa using isReal_zero
  | insert a s ha ih =>
    rw [Finset.sum_insert ha]
    exact (hf a (Finset.mem_insert_self a s)).add (ih fun k hk => hf k (Finset.mem_insert_of_mem hk))

/-- A sum over a whole finite type of reals is a real. -/
theorem isReal_sum_univ {ι : Type*} [Fintype ι] (f : ι → EReal) (hf : ∀ k, IsReal (f k)) :
    IsReal (∑ k, f k) :=
  isReal_sum Finset.univ f fun k _ => hf k

end Cert.Lib.RealClosed
-- ==== Proof.Conv.lean ====
/-
  Two graph-convolution layers, and why the second layer's weights may be applied before the edges are walked.

  Over N nodes and M edges let g r be the node edge r reads from and S n the set of edges that arrive at node n.  With
  h(n,k) the hidden feature k of node n (the first layer's output scaled by the node's out-degree factor), d(n) the
  in-degree factor, W the second layer's weights and b its bias:

    weights first:  (z + sum over r in S n of (sum over k of h(g r, k) * W(k,j))) * d(n) + b(j)
    edges first:    (sum over k of ((z + sum over r in S n of h(g r, k)) * d(n)) * W(k,j)) + b(j)

  where z is the zero the accumulation starts from.  When every h, every W and every d is a real number the two agree:
  both are the double sum over r and k of h(g r,k) * W(k,j) * d(n), plus b(j), by exchanging the two finite sums and
  distributing the products.  On the extended reals this needs the values to be real (an infinity does not distribute), which
  is why the entries are assumed real here.
-/
import Mathlib
import proofs.«136132_j52793738002763_2_alg».proof.Proof.LibRealClosed

open scoped BigOperators

noncomputable section

namespace Cert.Hand.Conv

open Cert.Lib.RealClosed

/-- The coercion of the reals into the extended reals commutes with a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals: the sum over edges of a row carried through the weights, scaled, is the scaled sum over edges carried
    through the weights. -/
theorem exchange_real {E K : Type*} [Fintype K] (S : Finset E) (a : E → K → ℝ) (w : K → ℝ) (d : ℝ) :
    (∑ e ∈ S, ∑ k, a e k * w k) * d = ∑ k, ((∑ e ∈ S, a e k) * d) * w k := by
  simp_rw [Finset.sum_mul]
  rw [Finset.sum_comm]
  exact Finset.sum_congr rfl fun k _ => Finset.sum_congr rfl fun e _ => by ring

/-- The same on the extended reals, for real entries, with the accumulation started from zero. -/
theorem exchange {E K : Type*} [Fintype K] (S : Finset E) (a : E → K → EReal) (w : K → EReal) (d z : EReal)
    (hz : z = 0) (ha : ∀ e k, IsReal (a e k)) (hw : ∀ k, IsReal (w k)) (hd : IsReal d) :
    (z + ∑ e ∈ S, ∑ k, a e k * w k) * d = ∑ k, ((z + ∑ e ∈ S, a e k) * d) * w k := by
  choose a' ha' using ha
  choose w' hw' using hw
  obtain ⟨d', rfl⟩ := hd
  subst hz
  have e1 : (0 + ∑ e ∈ S, ∑ k, a e k * w k) * (d' : EReal) = (((∑ e ∈ S, ∑ k, a' e k * w' k) * d' : ℝ) : EReal) := by
    rw [zero_add, EReal.coe_mul, coe_sum]
    congr 1
    refine Finset.sum_congr rfl fun e _ => ?_
    rw [coe_sum]
    exact Finset.sum_congr rfl fun k _ => by rw [ha', hw', EReal.coe_mul]
  have e2 : (∑ k, ((0 + ∑ e ∈ S, a e k) * (d' : EReal)) * w k) = ((∑ k, ((∑ e ∈ S, a' e k) * d') * w' k : ℝ) : EReal) := by
    rw [coe_sum]
    refine Finset.sum_congr rfl fun k _ => ?_
    rw [zero_add, EReal.coe_mul, EReal.coe_mul, coe_sum, hw']
    congr 2
    exact Finset.sum_congr rfl fun e _ => ha' e k
  rw [e1, e2, exchange_real]

variable {N M : ℕ}

/-- Hidden feature k of node n: the first layer's output (aggregated features scaled by the in-degree factor, through
    the weights, plus the bias) scaled by the node's out-degree factor. -/
def hid (A : Fin N → Fin 32 → EReal) (d s : Fin N → EReal) (W1 : Fin 32 → Fin 64 → EReal) (b1 : Fin 64 → EReal)
    (n : Fin N) (k : Fin 64) : EReal :=
  ((∑ i, (A n i * d n) * W1 i k) + b1 k) * s n

/-- The second layer with its weights applied node by node before the edges are walked. -/
def weightsFirst (h : Fin N → Fin 64 → EReal) (d : Fin N → EReal) (W2 : Fin 64 → Fin 32 → EReal) (b2 : Fin 32 → EReal)
    (g : Fin M → Fin N) (S : Fin N → Finset (Fin M)) (z : EReal) (n : Fin N) (j : Fin 32) : EReal :=
  (z + ∑ r ∈ S n, ∑ k, h (g r) k * W2 k j) * d n + b2 j

/-- The second layer as written: the edges are walked first, the weights applied after. -/
def edgesFirst (h : Fin N → Fin 64 → EReal) (d : Fin N → EReal) (W2 : Fin 64 → Fin 32 → EReal) (b2 : Fin 32 → EReal)
    (g : Fin M → Fin N) (S : Fin N → Finset (Fin M)) (z : EReal) (n : Fin N) (j : Fin 32) : EReal :=
  (∑ k, ((z + ∑ r ∈ S n, h (g r) k) * d n) * W2 k j) + b2 j

/-- For real entries the two orders give one value. -/
theorem weightsFirst_eq_edgesFirst (h : Fin N → Fin 64 → EReal) (d : Fin N → EReal) (W2 : Fin 64 → Fin 32 → EReal)
    (b2 : Fin 32 → EReal) (g : Fin M → Fin N) (S : Fin N → Finset (Fin M)) (z : EReal) (hz : z = 0)
    (hh : ∀ n k, IsReal (h n k)) (hW : ∀ k j, IsReal (W2 k j)) (hd : ∀ n, IsReal (d n)) (n : Fin N) (j : Fin 32) :
    weightsFirst h d W2 b2 g S z n j = edgesFirst h d W2 b2 g S z n j := by
  unfold weightsFirst edgesFirst
  rw [exchange (S n) (fun r k => h (g r) k) (fun k => W2 k j) (d n) z hz (fun r k => hh (g r) k) (fun k => hW k j) (hd n)]

/-- A hidden feature is real when its ingredients are. -/
theorem hid_real (A : Fin N → Fin 32 → EReal) (d s : Fin N → EReal) (W1 : Fin 32 → Fin 64 → EReal) (b1 : Fin 64 → EReal)
    (hA : ∀ n i, IsReal (A n i)) (hd : ∀ n, IsReal (d n)) (hs : ∀ n, IsReal (s n)) (hW : ∀ i k, IsReal (W1 i k))
    (hb : ∀ k, IsReal (b1 k)) (n : Fin N) (k : Fin 64) : IsReal (hid A d s W1 b1 n k) :=
  ((isReal_sum_univ _ fun i => ((hA n i).mul (hd n)).mul (hW i k)).add (hb k)).mul (hs n)

end Cert.Hand.Conv

end
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«136132_j52793738002763_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«136132_j52793738002763_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.LibScatterSum.lean ====
/-
  The accumulating scatter of whole rows, and of scalars into a vector, read at an entry as a sum over the update rows.

  For an index array with one index per update row, the entry (p, q) of a row scatter-add is the operand's entry plus
  the sum, over the update rows whose index word read signed is p, of the update's entry in column q; the entry p of a
  scatter-add of scalars is the operand's entry plus the sum of the updates whose index word is p. Rows whose index is
  negative or past the operand's last row match no p and contribute nothing.
-/
import proofs.«136132_j52793738002763_2_alg».proof.Proof.LibScatterRowsCols
import proofs.«136132_j52793738002763_2_alg».proof.Proof.LibScatterVec

namespace Cert.Lib

open Idealize.ShloMosaic Idealize.ShloMosaic.ValueIdx Finset

variable {N M C w : Nat}

/-- The row and the column of an entry of an [M, C] array, as numbers below M and C. -/
def rowOf (j : (⟨2, ![M, C]⟩ : Shape).Idx) : Fin M := j 0
def colOf (j : (⟨2, ![M, C]⟩ : Shape).Idx) : Fin C := j 1
/-- The position of an entry of an [M] array, as a number below M. -/
def posOf (j : (⟨1, ![M]⟩ : Shape).Idx) : Fin M := j 0

/-- A sum over the entries of an [M, C] array that lie in column q and whose row satisfies P is the sum over those rows. -/
theorem sum_rows_filter {A : Type*} [AddCommMonoid A] (P : Fin M → Prop) [DecidablePred P] (q : Fin C)
    (f : (⟨2, ![M, C]⟩ : Shape).Idx → A) :
    ∑ j ∈ univ.filter (fun j : (⟨2, ![M, C]⟩ : Shape).Idx => P (rowOf j) ∧ (colOf j).val = q.val), f j
      = ∑ r ∈ univ.filter P, f (ix2 r q) := by
  symm
  refine Finset.sum_bij' (fun r _ => ix2 r q) (fun j _ => rowOf j) ?_ ?_ ?_ ?_ ?_
  · intro r hr
    simp only [mem_filter, mem_univ, true_and] at hr ⊢
    exact ⟨hr, rfl⟩
  · intro j hj
    simp only [mem_filter, mem_univ, true_and] at hj ⊢
    exact hj.1
  · intro r _; rfl
  · intro j hj
    simp only [mem_filter, mem_univ, true_and] at hj
    have e : colOf j = q := Fin.ext hj.2
    rw [← e]
    exact (eq_ix2 j).symm
  · intro r _; rfl

/-- A sum over the entries of an [M] array whose position satisfies P is the sum over those positions. -/
theorem sum_entries_filter {A : Type*} [AddCommMonoid A] (P : Fin M → Prop) [DecidablePred P]
    (f : (⟨1, ![M]⟩ : Shape).Idx → A) :
    ∑ j ∈ univ.filter (fun j : (⟨1, ![M]⟩ : Shape).Idx => P (posOf j)), f j = ∑ r ∈ univ.filter P, f (ix1 r) := by
  symm
  refine Finset.sum_bij' (fun r _ => ix1 r) (fun j _ => posOf j) ?_ ?_ ?_ ?_ ?_
  · intro r hr
    simp only [mem_filter, mem_univ, true_and] at hr ⊢
    exact hr
  · intro j hj
    simp only [mem_filter, mem_univ, true_and] at hj ⊢
    exact hj
  · intro r _; rfl
  · intro j _; exact (eq_ix1 j).symm
  · intro r _; rfl

/-- A row scatter-add at the ideal instance, read at (p, q). -/
theorem rowScatterAdd_apply {φ : FTy} (d : ScatterDims ⟨2, ![N, C]⟩ ⟨2, ![M, 1]⟩ ⟨2, ![M, C]⟩) (hd : IsRowScatter d)
    (x : FVec Ideal ⟨2, ![N, C]⟩ φ) (idx : IVec ⟨2, ![M, 1]⟩ w) (upd : FVec Ideal ⟨2, ![M, C]⟩ φ) (p : Fin N) (q : Fin C) :
    Host.scatterAdd (F := Ideal) d x idx upd (ix2 p q)
      = x (ix2 p q) + ∑ r ∈ univ.filter (fun r : Fin M => (idx (ix2 r (0 : Fin 1))).toInt = (p.val : Int)), upd (ix2 r q) := by
  rw [hostScatterAdd_ideal]
  unfold Ideal.hostScatterAdd
  congr 1
  rw [← sum_rows_filter (fun r : Fin M => (idx (ix2 r (0 : Fin 1))).toInt = (p.val : Int)) q upd]
  refine Finset.sum_congr ?_ (fun _ _ => rfl)
  ext j
  simp only [mem_filter, mem_univ, true_and]
  exact row_resultIdx? d hd j idx (ix2 p q)

/-- A scatter-add of scalars into a vector at the ideal instance, read at p. -/
theorem vecScatterAdd_apply {φ : FTy} (d : ScatterDims ⟨1, ![N]⟩ ⟨2, ![M, 1]⟩ ⟨1, ![M]⟩) (hd : IsVecScatter d)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ r ∈ univ.filter (fun r : Fin M => (idx (ix2 r (0 : Fin 1))).toInt = (p.val : Int)), upd (ix1 r) := by
  rw [hostScatterAdd_ideal]
  unfold Ideal.hostScatterAdd
  congr 1
  rw [← sum_entries_filter (fun r : Fin M => (idx (ix2 r (0 : Fin 1))).toInt = (p.val : Int)) upd]
  refine Finset.sum_congr ?_ (fun _ _ => rfl)
  ext j
  simp only [mem_filter, mem_univ, true_and]
  exact vec_resultIdx? d hd j idx (ix1 p)

end Cert.Lib
-- ==== Proof.RefRead.lean ====
/-
  The reference program's result read at one entry.

  Node by node the reference computes two graph-convolution layers.  With, for node n: feat n i the first aggregation
  (features scaled by the source's out-degree factor, summed over the edges arriving at n), dIn n and dOut n the two degree
  factors, src r the node edge r reads (its source index clamped into the node range) and arrivals n the edges whose
  target index is n, the first layer's output scaled for the second layer is

      hidden p k = ((sum over i of (feat p i * dIn p) * W1(i,k)) + b1(k)) * dOut p,

  and the result at (n, j) is the second layer with the edges walked before the weights are applied:

      (sum over k of ((0 + sum over r in arrivals n of hidden (src r) k) * dIn n) * W2(k,j)) + b2(j).
-/
import proofs.«136132_j52793738002763_2_alg».proof.Proof.Gen.ReferenceIdeal.Read
import proofs.«136132_j52793738002763_2_alg».proof.Proof.Conv
import proofs.«136132_j52793738002763_2_alg».proof.Proof.LibGatherRows
import proofs.«136132_j52793738002763_2_alg».proof.Proof.LibScatterSum
import Idealize.ShloMosaic.Lib.ValueIdx
import Idealize.ShloMosaic.PureOps.Ideal

set_option maxRecDepth 16384

noncomputable section

namespace Cert.Hand.Ref

open Cert.ReferenceIdeal Cert.ReferenceIdeal.Read
open Idealize.ShloMosaic Idealize.ShloMosaic.ValueIdx
open Cert.Hand.Conv Cert.Lib
open scoped BigOperators

/-- The first aggregation at node n, feature i. -/
def feat (x0 : FVec Ideal S100000x32 .f32) (x1 x2 : IVec S1600000 32) (n : Fin 100000) (i : Fin 32) : EReal :=
  val_main_v25 (F := Ideal) x0 x1 x2 (ix2 n i)
/-- The in-degree factor of node n. -/
def dIn (x2 : IVec S1600000 32) (n : Fin 100000) : EReal := val_main_v12 (F := Ideal) x2 (ix1 n)
/-- The out-degree factor of node n. -/
def dOut (x1 : IVec S1600000 32) (n : Fin 100000) : EReal := val_main_v9 (F := Ideal) x1 (ix1 n)
/-- The node edge r reads from. -/
def src (x1 : IVec S1600000 32) (r : Fin 1600000) : Fin 100000 :=
  clampRow 100000 (by decide) (val_main_v21 (F := Ideal) x1 : IVec ⟨2, ![1600000, 1]⟩ 32) r
/-- The edges that arrive at node n. -/
def arrivals (x2 : IVec S1600000 32) (n : Fin 100000) : Finset (Fin 1600000) :=
  Finset.univ.filter (fun r : Fin 1600000 => ((val_main_v24 (F := Ideal) x2 : IVec ⟨2, ![1600000, 1]⟩ 32) (ix2 r (0 : Fin 1))).toInt = (n.val : Int))
/-- The zero an accumulation starts from. -/
def zeroW : EReal := Ideal.ofBits .f32 0x00000000#32

/-- The first layer's output at node p, feature k, scaled by the node's out-degree factor. -/
def hidden (x0 : FVec Ideal S100000x32 .f32) (x1 x2 : IVec S1600000 32) (x3 : FVec Ideal S32x64 .f32) (x4 : FVec Ideal S64 .f32) : Fin 100000 → Fin 64 → EReal :=
  hid (feat x0 x1 x2) (dIn x2) (dOut x1) (fun i k => x3 (ix2 i k)) (fun k => x4 (ix1 k))

/-! ## The second layer recomputes the degree factors and the edge indices: the same terms -/

theorem v42_eq (x1 : IVec S1600000 32) : val_main_v42 (F := Ideal) x1 = val_main_v9 (F := Ideal) x1 := rfl
theorem v45_eq (x2 : IVec S1600000 32) : val_main_v45 (F := Ideal) x2 = val_main_v12 (F := Ideal) x2 := rfl
theorem v54_eq (x1 : IVec S1600000 32) : val_main_v54 (F := Ideal) x1 = val_main_v21 (F := Ideal) x1 := rfl
theorem v57_eq (x2 : IVec S1600000 32) : val_main_v57 (F := Ideal) x2 = val_main_v24 (F := Ideal) x2 := rfl

/-! ## The first layer -/

theorem hidden_at (x0 : FVec Ideal S100000x32 .f32) (x1 x2 : IVec S1600000 32) (x3 : FVec Ideal S32x64 .f32) (x4 : FVec Ideal S64 .f32) (p : Fin 100000) (k : Fin 64) :
    val_main_v48 (F := Ideal) x0 x1 x2 x3 x4 (ix2 p k) = hidden x0 x1 x2 x3 x4 p k := by
  rw [val_main_v48_apply, val_main_v32_apply, val_main_v29_apply, val_main_v31_apply, val_main_v30_apply, val_main_v47_apply,
    val_main_v46_apply, v42_eq]
  have e1 : idx_main_v30 (idx_main_v31 (ix2 p k)) = ix1 k := funext fun a => Fin.ext (by match a with | ⟨0, _⟩ => rfl)
  have e2 : idx_main_v46 (idx_main_v47 (ix2 p k)) = ix1 p := funext fun a => Fin.ext (by match a with | ⟨0, _⟩ => rfl)
  have e3 : ∀ i : Fin 32, lidx_main_v29 (ix2 p k) i = ix2 p i := fun i => funext fun a => Fin.ext (by
    match a with
    | ⟨0, _⟩ => rfl
    | ⟨1, _⟩ => rfl)
  have e4 : ∀ i : Fin 32, ridx_main_v29 (ix2 p k) i = ix2 i k := fun i => funext fun a => Fin.ext (by
    match a with
    | ⟨0, _⟩ => rfl
    | ⟨1, _⟩ => rfl)
  have e5 : ∀ i : Fin 32, val_main_v28 (F := Ideal) x0 x1 x2 (ix2 p i)
      = val_main_v25 (F := Ideal) x0 x1 x2 (ix2 p i) * val_main_v12 (F := Ideal) x2 (ix1 p) := fun i => by
    rw [val_main_v28_apply, val_main_v27_apply, val_main_v26_apply]
    have e : idx_main_v26 (idx_main_v27 (ix2 p i)) = ix1 p := funext fun a => Fin.ext (by match a with | ⟨0, _⟩ => rfl)
    rw [e]
    rfl
  simp only [e1, e2, e3, e4, e5]
  rfl

/-! ## The result -/

theorem ref_at (x0 : FVec Ideal S100000x32 .f32) (x1 x2 : IVec S1600000 32) (x3 : FVec Ideal S32x64 .f32) (x4 : FVec Ideal S64 .f32) (x5 : FVec Ideal S64x32 .f32) (x6 : FVec Ideal S32 .f32) (n : Fin 100000) (j : Fin 32) :
    val_main_v65 (F := Ideal) x0 x1 x2 x3 x4 x5 x6 (ix2 n j)
      = edgesFirst (hidden x0 x1 x2 x3 x4) (dIn x2) (fun k j => x5 (ix2 k j)) (fun j => x6 (ix1 j)) (src x1) (arrivals x2) zeroW n j := by
  rw [val_main_v65_apply, val_main_v62_apply, val_main_v64_apply, val_main_v63_apply]
  have e1 : idx_main_v63 (idx_main_v64 (ix2 n j)) = ix1 j := funext fun a => Fin.ext (by match a with | ⟨0, _⟩ => rfl)
  have e2 : ∀ k : Fin 64, lidx_main_v62 (ix2 n j) k = ix2 n k := fun k => funext fun a => Fin.ext (by
    match a with
    | ⟨0, _⟩ => rfl
    | ⟨1, _⟩ => rfl)
  have e3 : ∀ k : Fin 64, ridx_main_v62 (ix2 n j) k = ix2 k j := fun k => funext fun a => Fin.ext (by
    match a with
    | ⟨0, _⟩ => rfl
    | ⟨1, _⟩ => rfl)
  have e4 : ∀ k : Fin 64, val_main_v61 (F := Ideal) x0 x1 x2 x3 x4 (ix2 n k)
      = (zeroW + ∑ r ∈ arrivals x2 n, hidden x0 x1 x2 x3 x4 (src x1 r) k) * dIn x2 n := fun k => by
    rw [val_main_v61_apply, val_main_v60_apply, val_main_v59_apply, v45_eq]
    have e : idx_main_v59 (idx_main_v60 (ix2 n k)) = ix1 n := funext fun a => Fin.ext (by match a with | ⟨0, _⟩ => rfl)
    rw [e]
    have hs : val_main_v58 (F := Ideal) x0 x1 x2 x3 x4 (ix2 n k)
        = zeroW + ∑ r ∈ arrivals x2 n, hidden x0 x1 x2 x3 x4 (src x1 r) k := by
      unfold val_main_v58
      rw [rowScatterAdd_apply _ ⟨rfl, rfl, rfl, rfl⟩ _ _ _ n k, v57_eq]
      refine congrArg₂ (· + ·) ?_ ?_
      · rw [val_main_v56_apply]; rfl
      · refine Finset.sum_congr rfl fun r _ => ?_
        unfold val_main_v55
        rw [row_gather_apply (by decide) _ ⟨rfl, rfl, rfl, rfl, rfl, rfl, rfl⟩ _ _ r k, v54_eq, hidden_at]
        rfl
    rw [hs]
    rfl
  simp only [e1, e2, e3, e4]
  rfl

/-- The first aggregation: the features of each arriving edge's source, scaled by the source's out-degree factor. -/
theorem feat_at (x0 : FVec Ideal S100000x32 .f32) (x1 x2 : IVec S1600000 32) (n : Fin 100000) (i : Fin 32) :
    feat x0 x1 x2 n i = zeroW + ∑ r ∈ arrivals x2 n, x0 (ix2 (src x1 r) i) * dOut x1 (src x1 r) := by
  unfold feat val_main_v25
  rw [rowScatterAdd_apply _ ⟨rfl, rfl, rfl, rfl⟩ _ _ _ n i]
  refine congrArg₂ (· + ·) ?_ ?_
  · rw [val_main_v23_apply]; rfl
  · refine Finset.sum_congr rfl fun r _ => ?_
    unfold val_main_v22
    rw [row_gather_apply (by decide) _ ⟨rfl, rfl, rfl, rfl, rfl, rfl, rfl⟩ _ _ r i, val_main_v15_apply, val_main_v14_apply, val_main_v13_apply]
    have e : idx_main_v13 (idx_main_v14 (ix2 (clampRow 100000 (by decide) (val_main_v21 (F := Ideal) x1 : IVec ⟨2, ![1600000, 1]⟩ 32) r) i))
        = ix1 (clampRow 100000 (by decide) (val_main_v21 (F := Ideal) x1 : IVec ⟨2, ![1600000, 1]⟩ 32) r) :=
      funext fun a => Fin.ext (by match a with | ⟨0, _⟩ => rfl)
    rw [e]
    rfl

end Cert.Hand.Ref

end
-- ==== Proof.LibClampedDegree.lean ====
/-
  A clamped count of edges and its reciprocal, on the extended reals.

  `clamped_count_real`    a sum of ones over any finite set, started from zero and clamped below by one, is a real
                          number other than zero;
  `splat_apply`           a scalar f32 constant spread over any shape by a broadcast with no dimensions reads as the
                          constant at every index;
  `clamped_degree_real`   the host's accumulating scatter of an all-ones update array into an all-zeros operand,
                          clamped below by an all-ones array, read at an index, is a real number other than zero (any
                          shapes and dimension numbers: it is the count of the updates that land on the index);
  `mul_recip_eq_div`      for a real `r` other than zero, `x · (1 / r) = x / r` for every extended real `x`, the
                          infinities included (a mean computed by a reciprocal against one computed by a quotient).
-/
import Idealize.ShloMosaic.PureOps.Ideal
import Idealize.ShloMosaic.PureOps.Ideal.Laws
import Idealize.ShloMosaic.Lib.IdealHost
import Idealize.ShloMosaic.Lib.Pipeline.Value

noncomputable section

open scoped BigOperators

namespace Cert.LibClampedDegree

open Idealize.ShloMosaic

/-- Multiplying by the reciprocal of a real other than zero is dividing by it, at the infinities too. -/
theorem mul_recip_eq_div (x : EReal) {r : ℝ} (hr : r ≠ 0) :
    x * Ideal.div (Ideal.ofBits .f32 0x3F800000#32) (r : EReal) = Ideal.div x (r : EReal) := by
  rw [Ideal.ofBits_one_f32, Ideal.div_coe hr, Ideal.div_coe hr, one_mul]

/-- A count of ones started from zero and clamped below by one is a real number other than zero. -/
theorem clamped_count_real {ι : Type} (s : Finset ι) :
    ∃ r : ℝ, r ≠ 0 ∧ max (Ideal.ofBits .f32 0x00000000#32 + ∑ _j ∈ s, Ideal.ofBits .f32 0x3F800000#32)
      (Ideal.ofBits .f32 0x3F800000#32) = (r : EReal) := by
  refine ⟨max (s.card : ℝ) 1, ne_of_gt (lt_of_lt_of_le one_pos (le_max_right _ _)), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

/-- A scalar constant spread over any shape reads as the constant at every index. -/
theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b :=
  (broadcastInDim_apply ![] h (constant (F := Ideal) ⟨0, ![]⟩ .f32 b) i (fun a => a.elim0) (fun a => a.elim0)).trans rfl

/-- The count of the updates landing on an index, started from zero and clamped below by one, is a real number
    other than zero. -/
theorem clamped_degree_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, r ≠ 0 ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_real _

end Cert.LibClampedDegree

end
-- ==== Proof.LibDegreeFactor.lean ====
/-
  The reciprocal square root of a clamped count of edges, on the extended reals.

  A count of ones over a finite set, started from zero and clamped below by one, is a real number that is at least one, so
  its reciprocal square root is a real number: the degree factor of a node is never an infinity, whatever the edges are.

  `clamped_count_pos`    the clamped count is a positive real;
  `clamped_degree_pos`   the host's accumulating scatter of an all-ones update array into an all-zeros operand, clamped
                         below by an all-ones array, read at an index, is a positive real (any shapes and dimension numbers);
  `rsqrt_real_of_pos`    the reciprocal square root of a positive real is a real;
  `degree_factor_real`   the reciprocal square root of the clamped count at an index is a real.
-/
import proofs.«136132_j52793738002763_2_alg».proof.Proof.LibClampedDegree
import proofs.«136132_j52793738002763_2_alg».proof.Proof.LibRealClosed

noncomputable section

open scoped BigOperators

namespace Cert.LibDegreeFactor

open Idealize.ShloMosaic Cert.LibClampedDegree Cert.Lib.RealClosed

/-- A count of ones started from zero and clamped below by one is a positive real. -/
theorem clamped_count_pos {ι : Type} (s : Finset ι) :
    ∃ r : ℝ, 0 < r ∧ max (Ideal.ofBits .f32 0x00000000#32 + ∑ _j ∈ s, Ideal.ofBits .f32 0x3F800000#32)
      (Ideal.ofBits .f32 0x3F800000#32) = (r : EReal) := by
  refine ⟨max (s.card : ℝ) 1, lt_of_lt_of_le one_pos (le_max_right _ _), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

/-- The count of the updates landing on an index, started from zero and clamped below by one, is a positive real. -/
theorem clamped_degree_pos {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, 0 < r ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_pos _

/-- The reciprocal square root of a positive real is a real. -/
theorem rsqrt_real_of_pos {r : ℝ} (hr : 0 < r) : IsReal (Ideal.rsqrt (r : EReal)) := by
  refine ⟨(Real.sqrt r)⁻¹, ?_⟩
  rw [Ideal.rsqrt_coe, if_neg (not_lt.2 hr.le), if_neg hr.ne']

/-- The degree factor of a node: the reciprocal square root of its clamped count of edges is a real. -/
theorem degree_factor_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    IsReal (Ideal.rsqrt (maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i)) := by
  obtain ⟨r, hr, e⟩ := clamped_degree_pos d idx hs hu i
  rw [e]
  exact rsqrt_real_of_pos hr

end Cert.LibDegreeFactor

end
-- ==== Proof.Reals.lean ====
/-
  Every number the second layer touches is real.

  The degree factors are reciprocal square roots of counts clamped below by one, so they are real whatever the edge lists
  are.  When the features are real, the first aggregation at a node is a finite sum of products of a feature and a degree
  factor, a real; when the first layer's weights and bias are real too, its scaled output (`hidden`) is real at every node
  and feature.
-/
import proofs.«136132_j52793738002763_2_alg».proof.Proof.RefRead
import proofs.«136132_j52793738002763_2_alg».proof.Proof.LibDegreeFactor

set_option maxRecDepth 16384

noncomputable section

namespace Cert.Hand.Ref

open Cert.ReferenceIdeal Cert.ReferenceIdeal.Read Cert.ReferenceIdeal.Facts₀ Cert.ReferenceIdeal.Facts
open Idealize.ShloMosaic Idealize.ShloMosaic.ValueIdx
open Cert.Hand.Conv Cert.Lib Cert.Lib.RealClosed
open scoped BigOperators

/-- The accumulations start from the real zero. -/
theorem zeroW_eq : zeroW = 0 := Ideal.ofBits_zero_f32

/-- The in-degree factor of a node is real. -/
theorem dIn_real (x2 : IVec S1600000 32) (n : Fin 100000) : IsReal (dIn x2 n) := by
  unfold dIn
  rw [val_main_v12_apply, Ideal.hostUnary_rsqrt_def]
  exact Cert.LibDegreeFactor.degree_factor_real scatter_S100000_S1600000x1_S1600000_n_0_0_1 (val_main_v5 (F := Ideal) x2)
    bcast_S_S100000 bcast_S_S1600000 (ix1 n)

/-- The out-degree factor of a node is real. -/
theorem dOut_real (x1 : IVec S1600000 32) (n : Fin 100000) : IsReal (dOut x1 n) := by
  unfold dOut
  rw [val_main_v9_apply, Ideal.hostUnary_rsqrt_def]
  exact Cert.LibDegreeFactor.degree_factor_real scatter_S100000_S1600000x1_S1600000_n_0_0_1 (val_main_v2 (F := Ideal) x1)
    bcast_S_S100000 bcast_S_S1600000 (ix1 n)

/-- The first aggregation of real features is real. -/
theorem feat_real (x0 : FVec Ideal S100000x32 .f32) (x1 x2 : IVec S1600000 32) (hx0 : ∀ i, IsReal (x0 i)) (n : Fin 100000) (i : Fin 32) :
    IsReal (feat x0 x1 x2 n i) := by
  rw [feat_at, zeroW_eq]
  exact isReal_zero.add (isReal_sum _ _ fun r _ => (hx0 _).mul (dOut_real x1 _))

/-- The first layer's scaled output is real when the features, the weights and the bias are. -/
theorem hidden_real (x0 : FVec Ideal S100000x32 .f32) (x1 x2 : IVec S1600000 32) (x3 : FVec Ideal S32x64 .f32) (x4 : FVec Ideal S64 .f32) (hx0 : ∀ i, IsReal (x0 i)) (hx3 : ∀ i, IsReal (x3 i)) (hx4 : ∀ i, IsReal (x4 i))
    (p : Fin 100000) (k : Fin 64) : IsReal (hidden x0 x1 x2 x3 x4 p k) :=
  hid_real _ _ _ _ _ (feat_real x0 x1 x2 hx0) (dIn_real x2) (dOut_real x1) (fun i k => hx3 _) (fun k => hx4 _) p k

end Cert.Hand.Ref

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelRead.lean ====
/-
  The idealized kernel's result read at one entry, and its agreement with the reference.

  The first kernel's output at node p and column j is the sum over k of hidden p k * W2(k,j): the second layer's weights
  applied node by node.  Gathered along the edges' sources and summed into their targets, scaled by the in-degree factor and
  shifted by the bias, the result at (n, j) is

      (0 + sum over r in arrivals n of (sum over k of hidden (src r) k * W2(k,j))) * dIn n + b2(j),

  the second layer with the weights applied before the edges are walked.  The reference walks the edges first; for real
  arguments the two orders agree (the exchange of the two finite sums), so the two programs' results are one array.
-/
import proofs.«136132_j52793738002763_2_alg».proof.Proof.KernelValue
import proofs.«136132_j52793738002763_2_alg».proof.Proof.RefRead
import proofs.«136132_j52793738002763_2_alg».proof.Proof.Reals
import proofs.«136132_j52793738002763_2_alg».proof.Proof.LibColumnCast
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Hand.Ref Cert.Hand.Conv Cert.Lib Cert.Lib.RealClosed
open scoped BigOperators

theorem dCol_at (x2 : IVec S1600000 32) (n : Fin 100000) : dCol x2 (ix2 n (0 : Fin 1)) = dIn x2 n := by
  unfold dCol dIn
  exact Cert.LibColumnCast.shapeCast_a_a1_apply _ _ n 0

theorem sCol_at (x1 : IVec S1600000 32) (n : Fin 100000) : sCol x1 (ix2 n (0 : Fin 1)) = dOut x1 n := by
  unfold sCol dOut
  exact Cert.LibColumnCast.shapeCast_a_a1_apply _ _ n 0

/-- The first kernel's output at node p, column j. -/
theorem nodeProducts_at (x0 : FVec Ideal S100000x32 .f32) (x1 x2 : IVec S1600000 32) (x3 : FVec Ideal S32x64 .f32) (x4 : FVec Ideal S64 .f32) (x5 : FVec Ideal S64x32 .f32) (p : Fin 100000) (j : Fin 32) :
    nodeProducts x0 x1 x2 x3 x4 x5 (ix2 p j) = ∑ k : Fin 64, hidden x0 x1 x2 x3 x4 p k * x5 (ix2 k j) := by
  unfold nodeProducts denseArr
  show dense _ _ _ _ _ _ p j = _
  unfold dense
  refine Finset.sum_congr rfl fun k _ => ?_
  rw [dCol_at, sCol_at, shapeCast_a_1a_apply x4 _ 0 k]
  rfl

/-- The per-node products summed over the edges arriving at node n. -/
theorem aggregated_at (x0 : FVec Ideal S100000x32 .f32) (x1 x2 : IVec S1600000 32) (x3 : FVec Ideal S32x64 .f32) (x4 : FVec Ideal S64 .f32) (x5 : FVec Ideal S64x32 .f32) (n : Fin 100000) (j : Fin 32) :
    aggregated x0 x1 x2 x3 x4 x5 (ix2 n j)
      = zeroW + ∑ r ∈ arrivals x2 n, ∑ k : Fin 64, hidden x0 x1 x2 x3 x4 (src x1 r) k * x5 (ix2 k j) := by
  unfold aggregated
  rw [rowScatterAdd_apply _ ⟨rfl, rfl, rfl, rfl⟩ _ _ _ n j]
  refine congrArg₂ (· + ·) ?_ ?_
  · rw [Cert.ReferenceIdeal.Read.val_main_v23_apply]; rfl
  · refine Finset.sum_congr rfl fun r _ => ?_
    rw [row_gather_apply (by decide) _ ⟨rfl, rfl, rfl, rfl, rfl, rfl, rfl⟩ _ _ r j, nodeProducts_at]
    rfl

/-- The kernel's result at (n, j): the second layer with the weights applied first. -/
theorem result_at (x0 : FVec Ideal S100000x32 .f32) (x1 x2 : IVec S1600000 32) (x3 : FVec Ideal S32x64 .f32) (x4 : FVec Ideal S64 .f32) (x5 : FVec Ideal S64x32 .f32) (x6 : FVec Ideal S32 .f32) (n : Fin 100000) (j : Fin 32) :
    result x0 x1 x2 x3 x4 x5 x6 (ix2 n j)
      = weightsFirst (hidden x0 x1 x2 x3 x4) (dIn x2) (fun k j => x5 (ix2 k j)) (fun j => x6 (ix1 j)) (src x1) (arrivals x2) zeroW n j := by
  unfold result scaleBiasArr
  show scaleBias _ _ _ n j = _
  unfold scaleBias
  rw [aggregated_at, dCol_at, shapeCast_a_1a_apply x6 _ 0 j]
  rfl

/-- For real float arguments the kernel's result array is the reference's. -/
theorem result_eq (x0 : FVec Ideal S100000x32 .f32) (x1 x2 : IVec S1600000 32) (x3 : FVec Ideal S32x64 .f32) (x4 : FVec Ideal S64 .f32) (x5 : FVec Ideal S64x32 .f32) (x6 : FVec Ideal S32 .f32)
    (hx0 : ∀ i, IsReal (x0 i)) (hx3 : ∀ i, IsReal (x3 i)) (hx4 : ∀ i, IsReal (x4 i)) (hx5 : ∀ i, IsReal (x5 i)) :
    result x0 x1 x2 x3 x4 x5 x6 = Cert.ReferenceIdeal.Read.val_main_v65 (F := Ideal) x0 x1 x2 x3 x4 x5 x6 := by
  funext i
  obtain ⟨n, j, rfl⟩ : ∃ (n : Fin 100000) (j : Fin 32), i = ix2 n j := ⟨i 0, i 1, eq_ix2 i⟩
  rw [result_at, ref_at]
  exact weightsFirst_eq_edgesFirst _ _ _ _ _ _ _ zeroW_eq (hidden_real x0 x1 x2 x3 x4 hx0 hx3 hx4) (fun k j => hx5 _) (dIn_real x2) n j

end Cert.KernelIdeal.Hand

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«136132_j52793738002763_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.PreReal.lean ====
/-
  The precondition read back: every entry of every float argument is a real number.

  The precondition is the conjunction, over the five float arguments, of "every entry's absolute value is below plus
  infinity", each folded by `and` into one bit.  The conjunction being 1 makes each fold 1, hence each comparison 1, hence
  each entry a real.
-/
import proofs.«136132_j52793738002763_2_alg».proof.Pre_finite_inputs
import proofs.«136132_j52793738002763_2_alg».proof.Proof.LibAllFinite
import proofs.«136132_j52793738002763_2_alg».proof.Proof.LibRealClosed
import Idealize.ShloMosaic.Lib.Affine
import Idealize.ShloMosaic.Lib.ValueIdx
import Idealize.ShloMosaic.Lib.Pipeline.Value

set_option maxRecDepth 16384

noncomputable section

namespace Cert.Hand.Pre

open Cert.Pre_finite_inputs Cert.Pre_finite_inputs.Facts
open Idealize.ShloMosaic Cert.Lib.RealClosed

variable [Cert.Pre_finite_inputs.Facts]

/-- The constant plus infinity spread over any shape reads as plus infinity everywhere. -/
theorem top_apply {t : Shape} (hb : S_.BroadcastsInDim t ![]) (i : t.Idx) :
    broadcastInDim t ![] hb (constant (F := Ideal) S_ .f32 0x7F800000#32) i = Ideal.ofBits .f32 0x7F800000#32 :=
  (broadcastInDim_apply ![] hb (constant (F := Ideal) S_ .f32 0x7F800000#32) i (fun a => a.elim0) (fun a => a.elim0)).trans rfl

theorem args_real (x0 : FVec Ideal S100000x32 .f32) (x1 x2 : IVec S1600000 32) (x3 : FVec Ideal S32x64 .f32) (x4 : FVec Ideal S64 .f32)
    (x5 : FVec Ideal S64x32 .f32) (x6 : FVec Ideal S32 .f32)
    (h : fn (F := Ideal) x0 x1 x2 x3 x4 x5 x6 = fun _ => 1#1) :
    (∀ i, IsReal (x0 i)) ∧ (∀ i, IsReal (x3 i)) ∧ (∀ i, IsReal (x4 i)) ∧ (∀ i, IsReal (x5 i)) ∧ (∀ i, IsReal (x6 i)) := by
  have h0 := congrFun h ValueIdx.ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨Cert.Lib.AllFinite.real_of_all_abs_lt_top x0 _ (top_apply _) _ _ _ _ h0,
    Cert.Lib.AllFinite.real_of_all_abs_lt_top x3 _ (top_apply _) _ _ _ _ h3,
    Cert.Lib.AllFinite.real_of_all_abs_lt_top x4 _ (top_apply _) _ _ _ _ h4,
    Cert.Lib.AllFinite.real_of_all_abs_lt_top x5 _ (top_apply _) _ _ _ _ h5,
    Cert.Lib.AllFinite.real_of_all_abs_lt_top x6 _ (top_apply _) _ _ _ _ h6⟩

end Cert.Hand.Pre

end
-- ==== Proof.lean ====
/-
  Two stacked graph-convolution layers: a kernel that applies the second layer's weights to every node BEFORE walking the
  edges, against the reference that walks the edges first.

  Both programs compute, per node, the reciprocal square roots of the clamped out- and in-degree, aggregate the scaled
  features along the edges, and apply the first layer (weights, bias).  For the second layer the reference gathers the
  64 hidden features along the edges, sums them into the targets, scales by the in-degree factor and multiplies by the
  64-by-32 weight matrix; the kernel multiplies every node's hidden features by the weight matrix first (inside its first
  kernel, fused with the first layer), gathers and sums the 32 products, and scales and adds the bias in its second kernel.
  The two results are the same double sum over arriving edges and hidden features, in the two orders; they agree because
  every number involved is real: the float arguments by the precondition, the degree factors because a clamped count is
  at least one, and everything built from them by sums and products.  On the extended reals the precondition is needed:
  an infinite weight would not distribute over the sum.

  The frames of the two kernel programs are their generated frame certificates; the reference's frame is its run with
  the result dropped; the idealization rewrote nothing, so it preserves the program trivially.
-/
import proofs.«136132_j52793738002763_2_alg».proof.Defs
import proofs.«136132_j52793738002763_2_alg».proof.Proof.Gen.Kernel
import proofs.«136132_j52793738002763_2_alg».proof.Proof.Gen.Kernel.Skeleton
import proofs.«136132_j52793738002763_2_alg».proof.Proof.Gen.Kernel.Launch
import proofs.«136132_j52793738002763_2_alg».proof.Proof.Gen.Kernel.Points
import proofs.«136132_j52793738002763_2_alg».proof.Proof.Gen.Kernel.Frame
import proofs.«136132_j52793738002763_2_alg».proof.Proof.Gen.KernelIdeal
import proofs.«136132_j52793738002763_2_alg».proof.Proof.Gen.KernelIdeal.Skeleton
import proofs.«136132_j52793738002763_2_alg».proof.Proof.Gen.KernelIdeal.Launch
import proofs.«136132_j52793738002763_2_alg».proof.Proof.Gen.KernelIdeal.Points
import proofs.«136132_j52793738002763_2_alg».proof.Proof.Gen.KernelIdeal.Frame
import proofs.«136132_j52793738002763_2_alg».proof.Proof.Gen.ReferenceIdeal
import proofs.«136132_j52793738002763_2_alg».proof.Proof.Gen.Pre_finite_inputs
import proofs.«136132_j52793738002763_2_alg».proof.Proof.Gen.ReferenceIdeal.Run
import proofs.«136132_j52793738002763_2_alg».proof.Proof.Gen.ReferenceIdeal.Read
import proofs.«136132_j52793738002763_2_alg».proof.Proof.KernelRead
import proofs.«136132_j52793738002763_2_alg».proof.Proof.PreReal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array (weights first) and the reference's (edges first) from arguments that agree: one array,
    the float arguments being real by the precondition. -/
theorem algebraic : Cert.algebraic_KernelIdeal_ReferenceIdeal := by
  intro m ρ m' ρ' hpre hagree
  refine ⟨fun c => Cert.KernelIdeal.Hand.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨r0, r3, r4, r5, -⟩ := Cert.Hand.Pre.args_real _ _ _ _ _ _ _ (hpre c)
  show Cert.ReferenceIdeal.Value.res_main_v65 m' c = Cert.KernelIdeal.Hand.result _ _ _ _ _ _ _
  rw [Cert.ReferenceIdeal.Read.val_main_v65_eq, e0, e1, e2, e3, e4, e5, e6]
  exact (Cert.KernelIdeal.Hand.result_eq _ _ _ _ _ _ _ r0 r3 r4 r5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
